-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S50000 : Shape := ⟨1, ![50000]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg7 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg7
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x128 .f32) (main_arg1 : IVec S1600000 32) (main_arg2 : IVec S1600000 32) (main_arg3 : IVec S50000 32) (main_arg4 : FVec F S128x256 .f32) (main_arg5 : FVec F S256 .f32) (main_arg6 : FVec F S256x1 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg4
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg5
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg6
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg7 main_v13 main_v16
-- ==== Kernel.lean ====
abbrev S50000x128 : Shape := ⟨2, ![50000, 128]⟩
abbrev S1600000 : Shape := ⟨1, ![1600000]⟩
abbrev S50000 : Shape := ⟨1, ![50000]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩
abbrev S1600000x1 : Shape := ⟨2, ![1600000, 1]⟩
abbrev S50000x1 : Shape := ⟨2, ![50000, 1]⟩
abbrev S1600000x128 : Shape := ⟨2, ![1600000, 128]⟩
abbrev S1x256 : Shape := ⟨2, ![1, 256]⟩
abbrev S2000x128 : Shape := ⟨2, ![2000, 128]⟩
abbrev S2000x1 : Shape := ⟨2, ![2000, 1]⟩
abbrev S2000x256 : Shape := ⟨2, ![2000, 256]⟩
abbrev S1x1 : Shape := ⟨2, ![1, 1]⟩
abbrev S64x1 : Shape := ⟨2, ![64, 1]⟩

abbrev nBuf : Space → Nat
  | .hbm => 85
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S50000, .i32⟩
  | .hbm, ⟨4, _⟩ => ⟨S128x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S50000, .f32⟩
  | .hbm, ⟨12, _⟩ => ⟨S1600000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S50000x128, .bf16⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .bf16⟩
  | .hbm, ⟨46, _⟩ => ⟨S1600000x128, .f32⟩
  | .hbm, ⟨47, _⟩ => ⟨S_, .f32⟩
  | .hbm, ⟨48, _⟩ => ⟨S50000x128, .f32⟩
  | .hbm, ⟨49, _⟩ => ⟨S1600000x1, .i32⟩
  | .hbm, ⟨50, _⟩ => ⟨S50000x128, .f32⟩
  | .hbm, ⟨51, _⟩ => ⟨S1x256, .f32⟩
  | .hbm, ⟨52, _⟩ => ⟨S50000x1, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x1, .f32⟩
  | .hbm, ⟨62, _⟩ => ⟨S_, .f32⟩
  | .hbm, ⟨63, _⟩ => ⟨S50000x1, .f32⟩
  | .hbm, ⟨64, _⟩ => ⟨S1600000x1, .i32⟩
  | .hbm, ⟨65, _⟩ => ⟨S50000x1, .f32⟩
  | .hbm, ⟨66, _⟩ => ⟨S50000x1, .f32⟩
  | .hbm, ⟨67, _⟩ => ⟨S1x1, .f32⟩
  | .hbm, ⟨68, _⟩ => ⟨S50000x1, .f32⟩
  | .hbm, ⟨69, _⟩ => ⟨S50000x1, .f32⟩
  | .hbm, ⟨70, _⟩ => ⟨S_, .f32⟩
  | .hbm, ⟨71, _⟩ => ⟨S64x1, .f32⟩
  | .hbm, ⟨72, _⟩ => ⟨S50000x1, .i32⟩
  | .hbm, ⟨73, _⟩ => ⟨S64x1, .f32⟩
  | .hbm, ⟨74, _⟩ => ⟨S_, .f32⟩
  | .hbm, ⟨75, _⟩ => ⟨S50000x1, .f32⟩
  | .hbm, ⟨76, _⟩ => ⟨S_, .f32⟩
  | .hbm, ⟨77, _⟩ => ⟨S64x1, .f32⟩
  | .hbm, ⟨78, _⟩ => ⟨S50000x1, .i32⟩
  | .hbm, ⟨79, _⟩ => ⟨S64x1, .f32⟩
  | .hbm, ⟨80, _⟩ => ⟨S_, .f32⟩
  | .hbm, ⟨81, _⟩ => ⟨S_, .f32⟩
  | .hbm, ⟨82, _⟩ => ⟨S64x1, .f32⟩
  | .hbm, ⟨83, _⟩ => ⟨S64x1, .f32⟩
  | .hbm, ⟨84, _⟩ => ⟨S64x1, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S128x256, .f32⟩
  | .local _ .vmem, ⟨7, _⟩ => ⟨S1x256, .f32⟩
  | .local _ .vmem, ⟨8, _⟩ => ⟨S256x1, .f32⟩
  | .local _ .vmem, ⟨9, _⟩ => ⟨S2000x1, .f32⟩
  | .local _ .vmem, ⟨10, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_6 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_14 : Ref sig .tc := ⟨.hbm, 80, rfl⟩
abbrev main_call2_v0 : Ref sig .tc := ⟨.hbm, 81, rfl⟩
abbrev main_call2_v1 : Ref sig .tc := ⟨.hbm, 82, rfl⟩
abbrev main_v52 : Ref sig .tc := ⟨.hbm, 83, rfl⟩
abbrev main_v53 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bitsLt_bf16_f32 : FTy.bits .bf16 < FTy.bits .f32
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  broadcasts_S2000x1_S2000x256 : S2000x1.Broadcasts S2000x256
  inb_S256x1_S256x1_0_0 : ∀ a, (![0, 0] : Fin 2 → Nat) a + S256x1.size a ≤ S256x1.size a
  h_S256x1 : 0 < S256x1.numel
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S64x1 : S_.BroadcastsInDim S64x1 (![] : Fin 0 → Fin S64x1.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x256_S2000x256_1_0_0_1_n_n_wf : DotDims.WF S2000x128 S128x256 S2000x256 [1] [0] [0] [1] [] []
  dot_S2000x256_S256x1_S2000x1_1_0_0_1_n_n_wf : DotDims.WF S2000x256 S256x1 S2000x1 [1] [0] [0] [1] [] []
  gather_S50000x1_S1600000x1_S1600000x1_1_0_n_n_0_1_11_wf : GatherDims.WF S50000x1 S1600000x1 S1600000x1 [1] [0] [] [0] [] 1 ![1, 1]
  scatter_S50000x1_S1600000x1_S1600000x1_1_0_0_1_wf : ScatterDims.WF S50000x1 S1600000x1 S1600000x1 [1] [0] [0] 1
  scatter_S64x1_S50000x1_S50000x1_1_0_0_1_wf : ScatterDims.WF S64x1 S50000x1 S50000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x1.size a ≤ S50000x1.size a
  hwx0_6 : ∀ i : grid0.Coords, EltTy.bits .f32 = 32 ∨ (Rect.block (s := S50000x1) S2000x1.size (cc0_transform_6 i) (hinb0_6 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf
def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

abbrev win0_0 : Pipeline.Window sig grid0 :=
  Pipeline.Window.ofSpec (Memref.whole main_v28) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S2000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S1600000 : Shape := ⟨1, ![1600000]⟩
abbrev S50000 : Shape := ⟨1, ![50000]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩
abbrev S1600000x1 : Shape := ⟨2, ![1600000, 1]⟩
abbrev S50000x1 : Shape := ⟨2, ![50000, 1]⟩
abbrev S1600000x128 : Shape := ⟨2, ![1600000, 128]⟩
abbrev S50000x256 : Shape := ⟨2, ![50000, 256]⟩
abbrev S1x256 : Shape := ⟨2, ![1, 256]⟩
abbrev S1x1 : Shape := ⟨2, ![1, 1]⟩
abbrev S64x1 : Shape := ⟨2, ![64, 1]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S50000, .i32⟩
  | .hbm, ⟨4, _⟩ => ⟨S128x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S50000, .f32⟩
  | .hbm, ⟨12, _⟩ => ⟨S1600000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S50000x128, .f32⟩
  | .hbm, ⟨46, _⟩ => ⟨S1600000x1, .i32⟩
  | .hbm, ⟨47, _⟩ => ⟨S50000x128, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S50000x256, .f32⟩
  | .hbm, ⟨52, _⟩ => ⟨S1x256, .f32⟩
  | .hbm, ⟨53, _⟩ => ⟨S50000x256, .f32⟩
  | .hbm, ⟨54, _⟩ => ⟨S50000x256, .f32⟩
  | .hbm, ⟨55, _⟩ => ⟨S_, .f32⟩
  | .hbm, ⟨56, _⟩ => ⟨S50000x256, .f32⟩
  | .hbm, ⟨57, _⟩ => ⟨S50000x256, .f32⟩
  | .hbm, ⟨58, _⟩ => ⟨S50000x1, .f32⟩
  | .hbm, ⟨59, _⟩ => ⟨S50000x256, .f32⟩
  | .hbm, ⟨60, _⟩ => ⟨S50000x256, .f32⟩
  | .hbm, ⟨61, _⟩ => ⟨S50000x1, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x1, .f32⟩
  | .hbm, ⟨71, _⟩ => ⟨S_, .f32⟩
  | .hbm, ⟨72, _⟩ => ⟨S50000x1, .f32⟩
  | .hbm, ⟨73, _⟩ => ⟨S1600000x1, .i32⟩
  | .hbm, ⟨74, _⟩ => ⟨S50000x1, .f32⟩
  | .hbm, ⟨75, _⟩ => ⟨S50000x1, .f32⟩
  | .hbm, ⟨76, _⟩ => ⟨S50000x1, .f32⟩
  | .hbm, ⟨77, _⟩ => ⟨S1x1, .f32⟩
  | .hbm, ⟨78, _⟩ => ⟨S50000x1, .f32⟩
  | .hbm, ⟨79, _⟩ => ⟨S50000x1, .f32⟩
  | .hbm, ⟨80, _⟩ => ⟨S_, .f32⟩
  | .hbm, ⟨81, _⟩ => ⟨S64x1, .f32⟩
  | .hbm, ⟨82, _⟩ => ⟨S50000x1, .i32⟩
  | .hbm, ⟨83, _⟩ => ⟨S64x1, .f32⟩
  | .hbm, ⟨84, _⟩ => ⟨S_, .f32⟩
  | .hbm, ⟨85, _⟩ => ⟨S50000x1, .f32⟩
  | .hbm, ⟨86, _⟩ => ⟨S_, .f32⟩
  | .hbm, ⟨87, _⟩ => ⟨S64x1, .f32⟩
  | .hbm, ⟨88, _⟩ => ⟨S50000x1, .i32⟩
  | .hbm, ⟨89, _⟩ => ⟨S64x1, .f32⟩
  | .hbm, ⟨90, _⟩ => ⟨S_, .f32⟩
  | .hbm, ⟨91, _⟩ => ⟨S_, .f32⟩
  | .hbm, ⟨92, _⟩ => ⟨S64x1, .f32⟩
  | .hbm, ⟨93, _⟩ => ⟨S64x1, .f32⟩
  | .hbm, ⟨94, _⟩ => ⟨S64x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev main_v9 : Ref sig .tc := ⟨.hbm, 24, rfl⟩
abbrev main_cst_4 : Ref sig .tc := ⟨.hbm, 25, rfl⟩
abbrev main_call1_v0 : Ref sig .tc := ⟨.hbm, 26, rfl⟩
abbrev main_call1_v1 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_cst : Ref sig .tc := ⟨.hbm, 55, rfl⟩
abbrev main_call2_v0 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_14 : Ref sig .tc := ⟨.hbm, 90, rfl⟩
abbrev main_call3_v0 : Ref sig .tc := ⟨.hbm, 91, rfl⟩
abbrev main_call3_v1 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S64x1 : S_.BroadcastsInDim S64x1 (![] : Fin 0 → Fin S64x1.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x256_S50000x256_1_0_0_1_n_n_wf : DotDims.WF S50000x128 S128x256 S50000x256 [1] [0] [0] [1] [] []
  dot_S50000x256_S256x1_S50000x1_1_0_0_1_n_n_wf : DotDims.WF S50000x256 S256x1 S50000x1 [1] [0] [0] [1] [] []
  gather_S50000x1_S1600000x1_S1600000x1_1_0_n_n_0_1_11_wf : GatherDims.WF S50000x1 S1600000x1 S1600000x1 [1] [0] [] [0] [] 1 ![1, 1]
  scatter_S50000x1_S1600000x1_S1600000x1_1_0_0_1_wf : ScatterDims.WF S50000x1 S1600000x1 S1600000x1 [1] [0] [0] 1
  scatter_S64x1_S50000x1_S50000x1_1_0_0_1_wf : ScatterDims.WF S64x1 S50000x1 S50000x1 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf
def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf

class Facts : Prop extends Facts₀ where

variable [Facts]
-- ==== Proof.GraphConvLayers.lean ====
/-
  The two dense layers of the graph convolution, at one node.

  A node's aggregated feature row `a` (128 entries) is scaled by the node's in-degree factor `nd`, multiplied by the
  first weight matrix, shifted by the first bias and clipped below at zero; the 256 hidden entries are scaled by the
  node's out-degree factor `ns` and contracted with the second weight column. Everything is on the extended reals
  and nothing is regrouped: each sum runs over the contracted coordinate exactly once, so the expression needs no
  finiteness of its entries.

  `layers` is the same expression for every node of the graph: entry `(r, 0)` of the result depends on row `r` of the
  aggregated features, on the two degree factors of node `r`, and on the weights.
-/
import Idealize.ShloMosaic.Lib.ValueIdx
import Idealize.ShloMosaic.PureOps.Ideal

noncomputable section

namespace Cert.GraphConv

open Idealize.ShloMosaic Idealize.ShloMosaic.ValueIdx

/-- One node: `∑ j, (max (∑ f, (a f · nd) · W1 (f, j) + b1 j) 0 · ns) · W2 (j, 0)`. The zero is kept as the float
    word it is written with on both sides. -/
def nodeOut (a : Fin 128 → EReal) (nd ns : EReal) (W1 : (⟨2, ![128, 256]⟩ : Shape).Idx → EReal) (b1 : Fin 256 → EReal)
    (W2 : (⟨2, ![256, 1]⟩ : Shape).Idx → EReal) : EReal :=
  ∑ j : Fin 256, (max ((∑ f : Fin 128, (a f * nd) * W1 (ix2 f j)) + b1 j) (Ideal.ofBits .f32 0x00000000#32) * ns)
    * W2 (ix2 j (0 : Fin 1))

/-- Every node: row `r` of the aggregated features with node `r`'s two degree factors. -/
def layers (agg : (⟨2, ![50000, 128]⟩ : Shape).Idx → EReal) (nd ns : (⟨2, ![50000, 1]⟩ : Shape).Idx → EReal)
    (W1 : (⟨2, ![128, 256]⟩ : Shape).Idx → EReal) (b1 : Fin 256 → EReal) (W2 : (⟨2, ![256, 1]⟩ : Shape).Idx → EReal) :
    (⟨2, ![50000, 1]⟩ : Shape).Idx → EReal :=
  fun i =>
    let r : Fin 50000 := i 0
    nodeOut (fun f => agg (ix2 r f)) (nd (ix2 r (0 : Fin 1))) (ns (ix2 r (0 : Fin 1))) W1 b1 W2

theorem layers_apply (agg : (⟨2, ![50000, 128]⟩ : Shape).Idx → EReal) (nd ns : (⟨2, ![50000, 1]⟩ : Shape).Idx → EReal)
    (W1 : (⟨2, ![128, 256]⟩ : Shape).Idx → EReal) (b1 : Fin 256 → EReal) (W2 : (⟨2, ![256, 1]⟩ : Shape).Idx → EReal)
    (r : Fin 50000) (u : Fin 1) :
    layers agg nd ns W1 b1 W2 (ix2 r u)
      = nodeOut (fun f => agg (ix2 r f)) (nd (ix2 r (0 : Fin 1))) (ns (ix2 r (0 : Fin 1))) W1 b1 W2 := rfl

end Cert.GraphConv

end
-- ==== Proof.LibMatProduct.lean ====
/-
  A matrix product into a zero accumulator, read at an entry.

  For operands `[m, k]` and `[k, n]` contracted over the left operand's columns and the right operand's rows, entry
  `(r, c)` of the product is the sum over the contracted coordinate `h` of `lhs (r, h) · rhs (h, c)`: the contraction's
  one-axis index set is re-indexed by its coordinate.
-/
import Idealize.ShloMosaic.Lib.ValueIdx
import Idealize.ShloMosaic.PureOps.Ideal.Laws

noncomputable section

namespace Cert.LibMatProduct

open Idealize.ShloMosaic Idealize.ShloMosaic.ValueIdx

/-- The float words of `1`, `510` at the ideal values. -/
theorem one_word : Ideal.ofBits .f32 0x3F800000#32 = (1 : EReal) := by
  simp [Ideal.ofBits, Ideal.ieee, -EReal.coe_mul]; norm_num

theorem w510 : Ideal.ofBits .f32 0x43FF0000#32 = ((510 : ℝ) : EReal) := by
  simp [Ideal.ofBits, Ideal.ieee, -EReal.coe_mul]; norm_num

/-- Entry `(r, c)` of `lhs · rhs` into a zero accumulator is `∑ h, lhs (r, h) · rhs (h, c)`. -/
theorem matmul_zero_apply {m k n : ℕ} {φ₁ φ₂ : FTy}
    (d : DotDims ⟨2, ![m, k]⟩ ⟨2, ![k, n]⟩ ⟨2, ![m, n]⟩) (prec : Option ContractPrecision)
    (hlc : d.lhsContracting = [1]) (hrc : d.rhsContracting = [0])
    (hln : d.lhsNonContracting = [0]) (hrn : d.rhsNonContracting = [1])
    (hlb : d.lhsBatch = []) (hrb : d.rhsBatch = [])
    (lhs : FVec Ideal ⟨2, ![m, k]⟩ φ₁) (rhs : FVec Ideal ⟨2, ![k, n]⟩ φ₂) (r : Fin m) (c : Fin n) :
    FloatOps.matmul d prec lhs rhs (constant ⟨2, ![m, n]⟩ .f32 0x00000000#32) (ix2 r c)
      = ∑ h : Fin k, lhs (ix2 r h) * rhs (ix2 h c) := by
  rw [Ideal.matmul_constant_zero_apply]
  have hrk : d.contr.rank = 1 := by rw [d.rank_contr, hlc]; rfl
  have hs : d.contr.size ⟨0, by omega⟩ = k := by
    rw [d.size_contr 0 (by rw [hlc]; exact Nat.one_pos)]
    simp [hlc]
  rw [← Equiv.sum_comp (contrEquiv1 d k hrk hs).symm]
  refine Finset.sum_congr rfl fun h _ => ?_
  have hval : (((contrEquiv1 d k hrk hs).symm h) ⟨0, by omega⟩ : ℕ) = h.val := contrEquiv1_symm_val d k hrk hs h
  congr 1
  · refine congrArg lhs (funext fun a => Fin.ext ?_)
    match a with
    | ⟨0, _⟩ =>
      show (d.lhsIdx (ix2 r c) _ 0).val = r.val
      unfold DotDims.lhsIdx
      rw [dif_neg (by rw [hlb]; exact List.not_mem_nil), dif_pos (by rw [hln]; exact List.mem_singleton.mpr rfl)]
      simp only [Fin.val_cast]
      have key : ∀ (p : Nat) (hp : p < (⟨2, ![m, n]⟩ : Shape).rank), p = 0 → ((ix2 r c : (⟨2, ![m, n]⟩ : Shape).Idx) ⟨p, hp⟩).val = r.val :=
        fun p hp e => by subst e; rfl
      exact key _ _ (by simp [hlb, hln])
    | ⟨1, _⟩ =>
      show (d.lhsIdx (ix2 r c) _ 1).val = h.val
      rw [d.lhsIdx_val_of_single hlc]
      exact hval
  · refine congrArg rhs (funext fun a => Fin.ext ?_)
    match a with
    | ⟨0, _⟩ =>
      show (d.rhsIdx (ix2 r c) _ 0).val = h.val
      rw [d.rhsIdx_val_of_single hrc]
      exact hval
    | ⟨1, _⟩ =>
      show (d.rhsIdx (ix2 r c) _ 1).val = c.val
      unfold DotDims.rhsIdx
      rw [dif_neg (by rw [hrb]; exact List.not_mem_nil), dif_pos (by rw [hrn]; exact List.mem_singleton.mpr rfl)]
      simp only [Fin.val_cast]
      have key : ∀ (p : Nat) (hp : p < (⟨2, ![m, n]⟩ : Shape).rank), p = 1 → ((ix2 r c : (⟨2, ![m, n]⟩ : Shape).Idx) ⟨p, hp⟩).val = c.val :=
        fun p hp e => by subst e; rfl
      exact key _ _ (by simp [hlb, hln, hrn])

end Cert.LibMatProduct

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.BodyRow.lean ====
/-
  The kernel body's one stored value, read at a row of its block.

  The body loads a block of 2000 aggregated feature rows, the two matching blocks of degree factors (columns
  `[2000, 1]`), the whole weight matrices and the bias row, and stores one column `[2000, 1]`. Read at row `p` of the
  block, the stored value is `nodeOut` of row `p` of the loaded block and the two factors of row `p`: each matrix
  product into a zero accumulator is the sum over its contracted coordinate, the column factors are broadcast along
  their rows, the bias row down the rows, and a change of float format is the identity on the extended reals.
-/
import proofs.«134346_j85306640433226_2_alg».proof.Proof.Gen.KernelIdeal.Skeleton
import proofs.«134346_j85306640433226_2_alg».proof.Proof.GraphConvLayers
import proofs.«134346_j85306640433226_2_alg».proof.Proof.LibMatProduct
import proofs.«134346_j85306640433226_2_alg».proof.Proof.LibKeepdims
import Idealize.ShloMosaic.Lib.ValueLayout
import Idealize.ShloMosaic.Lib.Pipeline.Value

noncomputable section

namespace Cert.GraphConv

open Idealize.ShloMosaic Idealize.ShloMosaic.ValueIdx Cert.KernelIdeal Cert.KernelIdeal.Gen

/-- Row `p` of the stored column is the two dense layers at row `p` of the loaded blocks. -/
theorem body_row (x0 : Vec Ideal S2000x128 .f32) (x1 x2 : Vec Ideal S2000x1 .f32) (x3 : Vec Ideal S128x256 .f32)
    (x4 : Vec Ideal S1x256 .f32) (x5 : Vec Ideal S256x1 .f32) (p : Fin 2000) (u : Fin 1) :
    k0_pay1 (F := Ideal) x0 x1 x3 x4 x2 x5 (ix2 p u)
      = nodeOut (fun f => x0 (ix2 p f)) (x1 (ix2 p (0 : Fin 1))) (x2 (ix2 p (0 : Fin 1))) x3
          (fun j => x4 (ix2 (0 : Fin 1) j)) x5 := by
  obtain rfl : u = 0 := Subsingleton.elim _ _
  unfold k0_pay1
  refine (Cert.LibMatProduct.matmul_zero_apply _ none rfl rfl rfl rfl rfl rfl _ _ p (0 : Fin 1)).trans ?_
  unfold nodeOut
  refine Finset.sum_congr rfl fun j _ => ?_
  -- the first product at (p, j)
  have e1 : matmul (F := Ideal) dot_S2000x128_S128x256_S2000x256_1_0_0_1_n_n none
        (truncf (F := Ideal) .bf16 (mulf (F := Ideal) (φ := .f32) (shapeCast S2000x128 x0 Facts₀.shapeCasts_S2000x128_S2000x128)
          (broadcastTo S2000x128 (shapeCast S2000x1 x1 Facts₀.shapeCasts_S2000x1_S2000x1) Facts₀.broadcasts_S2000x1_S2000x128))
          Facts₀.bitsLt_bf16_f32)
        (truncf (F := Ideal) (φ := .f32) .bf16 x3 Facts₀.bitsLt_bf16_f32) (constant (F := Ideal) S2000x256 .f32 0x00000000#32) (ix2 p j)
      = ∑ f : Fin 128, (x0 (ix2 p f) * x1 (ix2 p (0 : Fin 1))) * x3 (ix2 f j) := by
    refine (Cert.LibMatProduct.matmul_zero_apply _ none rfl rfl rfl rfl rfl rfl _ _ p j).trans ?_
    refine Finset.sum_congr rfl fun f _ => ?_
    have a0 : shapeCast S2000x128 x0 Facts₀.shapeCasts_S2000x128_S2000x128 = x0 := shapeCast_self _ _
    have a1 : broadcastTo S2000x128 (shapeCast S2000x1 x1 Facts₀.shapeCasts_S2000x1_S2000x1) Facts₀.broadcasts_S2000x1_S2000x128 (ix2 p f)
        = x1 (ix2 p (0 : Fin 1)) :=
      (Cert.LibKeepdims.broadcastTo_a1_ab_apply _ _ p f).trans (congrFun (shapeCast_self _ _) _)
    exact congrArg₂ (· * ·) (congrArg₂ (· * ·) (congrFun a0 _) a1) rfl
  -- the bias row, broadcast down the rows
  have e2 : broadcastTo S2000x256 (shapeCast S1x256 x4 Facts₀.shapeCasts_S1x256_S1x256) Facts₀.broadcasts_S1x256_S2000x256 (ix2 p j)
      = x4 (ix2 (0 : Fin 1) j) :=
    (broadcastTo_1b_ab_apply _ _ p j).trans (congrFun (shapeCast_self _ _) _)
  -- the out-degree factor, broadcast along the row
  have e3 : broadcastTo S2000x256 (shapeCast S2000x1 x2 Facts₀.shapeCasts_S2000x1_S2000x1) Facts₀.broadcasts_S2000x1_S2000x256 (ix2 p j)
      = x2 (ix2 p (0 : Fin 1)) :=
    (Cert.LibKeepdims.broadcastTo_a1_ab_apply _ _ p j).trans (congrFun (shapeCast_self _ _) _)
  exact congrArg₂ (· * ·) (congrArg₂ (· * ·) (congrArg₂ max (congrArg₂ (· + ·) e1 e2) rfl) e3) rfl

end Cert.GraphConv

end
-- ==== Proof.RowBlocks.lean ====
/-
  From the kernel's blocks to its whole output column.

  The grid has 25 points. Point `t` loads rows `2000·t … 2000·t + 1999` of the aggregated features and of the two
  degree columns, the whole weight matrices and the bias row, and writes back rows `2000·t … 2000·t + 1999` of the
  output column. By `body_row`, row `p` of what point `t` writes is `nodeOut` of row `2000·t + p` of the arrays the
  region found: so the written block is block `t` of ONE whole-array function, `layers` of those arrays. The 25 blocks
  cover the 50000 rows (row `r` lies in the block of point `r / 2000`), so after the run the output column is `layers`.
-/
import proofs.«134346_j85306640433226_2_alg».proof.Proof.Gen.KernelIdeal.Frame
import proofs.«134346_j85306640433226_2_alg».proof.Proof.BodyRow
import Idealize.ShloMosaic.Lib.Pipeline.Value

set_option maxRecDepth 16384

noncomputable section

namespace Cert.GraphConv

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- `nodeOut` of equal data. -/
theorem nodeOut_congr {a a' : Fin 128 → EReal} {nd nd' ns ns' : EReal}
    {W1 W1' : (⟨2, ![128, 256]⟩ : Shape).Idx → EReal} {b1 b1' : Fin 256 → EReal} {W2 W2' : (⟨2, ![256, 1]⟩ : Shape).Idx → EReal}
    (ha : a = a') (hnd : nd = nd') (hns : ns = ns') (hW1 : W1 = W1') (hb1 : b1 = b1') (hW2 : W2 = W2') :
    nodeOut a nd ns W1 b1 W2 = nodeOut a' nd' ns' W1' b1' W2' := by
  subst ha hnd hns hW1 hb1 hW2; rfl

/-- The printed index maps over the grid: the three row-blocked inputs move with the output, whose block row is
    the point's number; the weights and the bias sit at block (0, 0). -/
theorem block_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section Block

variable (A0 : (⟨S50000x128, .f32⟩ : BufTy).Contents (Elt Ideal)) (A1 A2 : (⟨S50000x1, .f32⟩ : BufTy).Contents (Elt Ideal))
  (A3 : (⟨S128x256, .f32⟩ : BufTy).Contents (Elt Ideal)) (A4 : (⟨S1x256, .f32⟩ : BufTy).Contents (Elt Ideal))
  (A5 : (⟨S256x1, .f32⟩ : BufTy).Contents (Elt Ideal))

set_option maxHeartbeats 1000000 in
/-- For ANY six arrays: what the body leaves at point `t` from their blocks is block `t` of `layers` of the arrays. -/
theorem block_of_layers (t : Fin cfg0.N) :
    (cfg0.win 6).cut (grid0.coords t)
        (out0_6 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5))
      = ((cfg0.win 6).blk t).view.read (Elt Ideal) (layers A0 A1 A2 A3 (fun j => A4 (ix2 (0 : Fin 1) j)) A5) := by
  unfold out0_6
  rw [View.canon_unit_zero zero_offsets]
  simp only [View.ld_unit_zero (S := S2000x128) zero_offsets, View.ld_unit_zero (S := S2000x1) zero_offsets,
    View.ld_unit_zero (S := S128x256) zero_offsets, View.ld_unit_zero (S := S1x256) zero_offsets,
    View.ld_unit_zero (S := S256x1) zero_offsets]
  obtain ⟨e00, e01, e10, e11, e20, e21, e30, e31, e40, e41, e50, e51, e60, e61⟩ := block_rows t
  have ht : t.val < 25 := t.isLt.trans_eq N_0
  refine funext fun (y : S2000x1.Idx) => ?_
  obtain ⟨p, u, rfl⟩ : ∃ (p : Fin 2000) (u : Fin 1), y = ix2 p u := ⟨y 0, y 1, eq_ix2 y⟩
  have hu : u.val = 0 := by omega
  have hp : p.val < 2000 := p.isLt
  show k0_pay1 (F := Ideal) (((cfg0.win 0).blk t).view.read (Elt Ideal) A0) (((cfg0.win 1).blk t).view.read (Elt Ideal) A1)
      (((cfg0.win 3).blk t).view.read (Elt Ideal) A3) (((cfg0.win 4).blk t).view.read (Elt Ideal) A4)
      (((cfg0.win 2).blk t).view.read (Elt Ideal) A2) (((cfg0.win 5).blk t).view.read (Elt Ideal) A5) (ix2 p u)
    = layers A0 A1 A2 A3 (fun j => A4 (ix2 (0 : Fin 1) j)) A5 (((cfg0.win 6).blk t).view.emb (ix2 p u))
  refine (body_row _ _ _ _ _ _ p u).trans ?_
  -- the output row this entry lands on
  have hrow : ((cfg0.win 6).blk t).view.emb (ix2 p u)
      = ix2 (⟨t.val * 2000 + p.val, by omega⟩ : Fin 50000) (0 : Fin 1) := by
    funext a; apply Fin.ext
    match a with
    | ⟨0, _⟩ => show win0_6.index t (0 : Fin 2) * 2000 + 1 * p.val = t.val * 2000 + p.val; omega
    | ⟨1, _⟩ => show win0_6.index t (1 : Fin 2) * 1 + 1 * u.val = 0; omega
  rw [hrow, layers_apply]
  refine nodeOut_congr ?_ ?_ ?_ ?_ ?_ ?_
  · funext f
    show A0 (((cfg0.win 0).blk t).view.emb (ix2 p f)) = A0 (ix2 (⟨t.val * 2000 + p.val, by omega⟩ : Fin 50000) f)
    refine congrArg A0 (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * f.val = f.val; omega
  · show A1 (((cfg0.win 1).blk t).view.emb (ix2 p (0 : Fin 1))) = A1 (ix2 (⟨t.val * 2000 + p.val, by omega⟩ : Fin 50000) (0 : Fin 1))
    refine congrArg A1 (funext fun a => Fin.ext ?_)
    match a with
    | ⟨0, _⟩ => show win0_1.index t (0 : Fin 2) * 2000 + 1 * p.val = t.val * 2000 + p.val; omega
    | ⟨1, _⟩ => show win0_1.index t (1 : Fin 2) * 1 + 1 * 0 = 0; omega
  · show A2 (((cfg0.win 2).blk t).view.emb (ix2 p (0 : Fin 1))) = A2 (ix2 (⟨t.val * 2000 + p.val, by omega⟩ : Fin 50000) (0 : Fin 1))
    refine congrArg A2 (funext fun a => Fin.ext ?_)
    match a with
    | ⟨0, _⟩ => show win0_2.index t (0 : Fin 2) * 2000 + 1 * p.val = t.val * 2000 + p.val; omega
    | ⟨1, _⟩ => show win0_2.index t (1 : Fin 2) * 1 + 1 * 0 = 0; omega
  · refine funext fun (z : S128x256.Idx) => ?_
    show A3 (((cfg0.win 3).blk t).view.emb z) = A3 z
    refine congrArg A3 (funext fun a => Fin.ext ?_)
    match a with
    | ⟨0, _⟩ => show win0_3.index t (0 : Fin 2) * 128 + 1 * (z 0).val = (z 0).val; omega
    | ⟨1, _⟩ => show win0_3.index t (1 : Fin 2) * 256 + 1 * (z 1).val = (z 1).val; omega
  · funext j
    show A4 (((cfg0.win 4).blk t).view.emb (ix2 (0 : Fin 1) j)) = A4 (ix2 (0 : Fin 1) j)
    refine congrArg A4 (funext fun a => Fin.ext ?_)
    match a with
    | ⟨0, _⟩ => show win0_4.index t (0 : Fin 2) * 1 + 1 * 0 = 0; omega
    | ⟨1, _⟩ => show win0_4.index t (1 : Fin 2) * 256 + 1 * j.val = j.val; omega
  · refine funext fun (z : S256x1.Idx) => ?_
    show A5 (((cfg0.win 5).blk t).view.emb z) = A5 z
    refine congrArg A5 (funext fun a => Fin.ext ?_)
    match a with
    | ⟨0, _⟩ => show win0_5.index t (0 : Fin 2) * 256 + 1 * (z 0).val = (z 0).val; omega
    | ⟨1, _⟩ => show win0_5.index t (1 : Fin 2) * 1 + 1 * (z 1).val = (z 1).val; omega

end Block

/-- WHAT POINT `t` WRITES BACK is block `t` of `layers` of the arrays as the region finds them. -/
theorem written_block (c : Dev nD) (t : Fin cfg0.N) :
    (dats m 0 c).flushed 6 t = ((cfg0.win 6).blk t).view.read (Elt Ideal)
      (layers (V m c main_v28) (V m c main_v14) (V m c main_v13) (V m c main_arg4)
        (fun j => V m c main_v29 (ix2 (0 : Fin 1) j)) (V m c main_arg6)) := by
  show (cfg0.win 6).cut (grid0.coords t) ((dats m 0 c).after 6 t) = _
  rw [after0_6]
  unfold iblk
  exact block_of_layers (V m c main_v28) (V m c main_v14) (V m c main_v13) (V m c main_arg4) (V m c main_v29) (V m c main_arg6) t

/-- An index of the output column is in point `t`'s block iff each coordinate is in the block's range on its axis. -/
theorem mem_block (t : Fin cfg0.N) (i : S50000x1.Idx) :
    i ∈ ((cfg0.win 6).blk t).view.set ↔ ∀ a : Fin 2, win0_6.index t a * S2000x1.size a ≤ (i a).val
      ∧ (i a).val < win0_6.index t a * S2000x1.size a + S2000x1.size a := by
  show i ∈ ((View.whole main_v30).slice (win0_6.rect t)).set ↔ _
  rw [View.set_slice_whole, Rect.mem_set_unit]
  exact Iff.rfl

/-- Every row of the output column is written: row `r` by point `r / 2000`. -/
theorem rows_covered (i : S50000x1.Idx) :
    ∃ t : Fin cfg0.N, (cfg0.win 6).flush t = true ∧ i ∈ ((cfg0.win 6).blk t).view.set := by
  have hi0 : (i 0).val < 50000 := (i 0).isLt
  have hi1 : (i 1).val < 1 := (i 1).isLt
  have hN : cfg0.N = 25 := N_0
  have hlt : (i 0).val / 2000 < cfg0.N := by rw [hN]; omega
  refine ⟨⟨(i 0).val / 2000, hlt⟩, flush0_6 _, ?_⟩
  rw [mem_block]
  obtain ⟨-, -, -, -, -, -, -, -, -, -, -, -, e60, e61⟩ := block_rows ⟨(i 0).val / 2000, hlt⟩
  have e60' : win0_6.index ⟨(i 0).val / 2000, hlt⟩ (0 : Fin 2) = (i 0).val / 2000 := e60
  intro a
  match a with
  | ⟨0, _⟩ =>
    show win0_6.index ⟨(i 0).val / 2000, hlt⟩ (0 : Fin 2) * 2000 ≤ (i 0).val
      ∧ (i 0).val < win0_6.index ⟨(i 0).val / 2000, hlt⟩ (0 : Fin 2) * 2000 + 2000
    omega
  | ⟨1, _⟩ =>
    show win0_6.index ⟨(i 0).val / 2000, hlt⟩ (1 : Fin 2) * 1 ≤ (i 1).val
      ∧ (i 1).val < win0_6.index ⟨(i 0).val / 2000, hlt⟩ (1 : Fin 2) * 1 + 1
    omega

/-- THE OUTPUT COLUMN after the run: `layers` of the arrays the region found. -/
theorem region_output (c : Dev nD) :
    (dats m 0 c).arrAt 6 cfg0.N
      = layers (V m c main_v28) (V m c main_v14) (V m c main_v13) (V m c main_arg4)
          (fun j => V m c main_v29 (ix2 (0 : Fin 1) j)) (V m c main_arg6) :=
  (dats m 0 c).arrAt_eq_of_cover 6 _ (fun t _ => written_block m c t) rows_covered

end Cert.GraphConv

end
-- ==== Proof.HostTerms.lean ====
/-
  The host side of the graph convolution, as named functions of what it reads, and the whole computation.

  From the edge lists: each node's degree factor `(max 1 (number of edges at the node))^(-1/2)` as a column
  `[50000, 1]` (`degColumn`: of the sources it is the out-degree factor, of the targets the in-degree factor), and the
  aggregated features: the features scaled by the out-degree factor, gathered along the edges' sources and summed
  into the edges' targets (`aggregatedPlain`; `aggregated` is the same with the scaled features narrowed to a
  shorter float format before the gather and widened back after it). A negative edge index counts from the end
  (`wrapped`). From a column of per-node values (`pooled`): gathered along the sources, summed into the targets,
  scaled by the in-degree factor, shifted by the second bias, and averaged over each graph's nodes (the per-graph
  sums over the per-graph node counts clipped below at one).

  These are stated for any float arithmetic. On the extended reals a change of float format is the identity, so
  `aggregated` is `aggregatedPlain` there, and `result` is the whole computation: `pooled` of the two dense layers at
  every node (`layers`) of the aggregated features.
-/
import proofs.«134346_j85306640433226_2_alg».proof.Proof.Gen.KernelIdeal
import proofs.«134346_j85306640433226_2_alg».proof.Proof.GraphConvLayers
import Idealize.ShloMosaic.PureOps.Ideal

set_option maxRecDepth 16384

noncomputable section

namespace Cert.GraphConv

open Idealize.ShloMosaic Idealize.ShloMosaic.ValueIdx
open Cert.KernelIdeal

variable {F : FTy → Type} [FloatOps F]

/-- An edge endpoint as the row it names: a negative index counts from the end. -/
def wrapped (e : (⟨S1600000, .i32⟩ : BufTy).Contents (Elt F)) : (⟨S1600000x1, .i32⟩ : BufTy).Contents (Elt F) :=
  broadcastInDim S1600000x1 ![0] Facts₀.bcast_S1600000_S1600000x1_0
    (select (cmpi .slt e (broadcastInDim S1600000 ![] Facts₀.bcast_S_S1600000 (constantI S_ 32 0#32)))
      (addi e (broadcastInDim S1600000 ![] Facts₀.bcast_S_S1600000 (constantI S_ 32 50000#32))) e)

/-- The degree factor of every node, as a column: `(max 1 (edges at the node))^(-1/2)`. -/
def degColumn (e : (⟨S1600000, .i32⟩ : BufTy).Contents (Elt F)) : (⟨S50000x1, .f32⟩ : BufTy).Contents (Elt F) :=
  broadcastInDim S50000x1 ![0] Facts₀.bcast_S50000_S50000x1_0
    (Host.powf
      (maximumf (broadcastInDim S50000 ![] Facts₀.bcast_S_S50000 (id (constant S_ .f32 0x3F800000#32)))
        (Host.scatterAdd scatter_S50000_S1600000x1_S1600000_n_0_0_1
          (broadcastInDim S50000 ![] Facts₀.bcast_S_S50000 (constant S_ .f32 0x00000000#32))
          (broadcastInDim S1600000x1 ![0] Facts₀.bcast_S1600000_S1600000x1_0 e)
          (broadcastInDim S1600000 ![] Facts₀.bcast_S_S1600000 (constant S_ .f32 0x3F800000#32))))
      (broadcastInDim S50000 ![] Facts₀.bcast_S_S50000 (constant S_ .f32 0xBF000000#32)))

/-- The aggregated features: scaled by the out-degree factor, gathered along the sources, summed into the targets. -/
def aggregated (x0 : (⟨S50000x128, .f32⟩ : BufTy).Contents (Elt F)) (src dst : (⟨S1600000, .i32⟩ : BufTy).Contents (Elt F)) :
    (⟨S50000x128, .f32⟩ : BufTy).Contents (Elt F) :=
  Host.scatterAdd scatter_S50000x128_S1600000x1_S1600000x128_1_0_0_1
    (broadcastInDim S50000x128 ![] Facts₀.bcast_S_S50000x128 (constant S_ .f32 0x00000000#32))
    (broadcastInDim S1600000x1 ![0] Facts₀.bcast_S1600000_S1600000x1_0 dst)
    (extf .f32
      (Host.gather gather_S50000x128_S1600000x1_S1600000x128_1_0_n_n_0_1_1128
        (truncf .bf16
          (mulf x0 (broadcastInDim S50000x128 ![0, 1] Facts₀.bcast_S50000x1_S50000x128_0_1 (degColumn src)))
          Facts₀.bitsLt_bf16_f32)
        (wrapped src))
      Facts₀.bitsLt_bf16_f32)

/-- The aggregated features with no change of float format. -/
def aggregatedPlain (x0 : (⟨S50000x128, .f32⟩ : BufTy).Contents (Elt F)) (src dst : (⟨S1600000, .i32⟩ : BufTy).Contents (Elt F)) :
    (⟨S50000x128, .f32⟩ : BufTy).Contents (Elt F) :=
  Host.scatterAdd scatter_S50000x128_S1600000x1_S1600000x128_1_0_0_1
    (broadcastInDim S50000x128 ![] Facts₀.bcast_S_S50000x128 (constant S_ .f32 0x00000000#32))
    (broadcastInDim S1600000x1 ![0] Facts₀.bcast_S1600000_S1600000x1_0 dst)
    (Host.gather gather_S50000x128_S1600000x1_S1600000x128_1_0_n_n_0_1_1128
      (mulf x0 (broadcastInDim S50000x128 ![0, 1] Facts₀.bcast_S50000x1_S50000x128_0_1 (degColumn src)))
      (wrapped src))

/-- The second aggregation, the in-degree scale, the second bias, and the mean over each graph's nodes. -/
def pooled (x2w nd : (⟨S50000x1, .f32⟩ : BufTy).Contents (Elt F)) (src dst : (⟨S1600000, .i32⟩ : BufTy).Contents (Elt F))
    (gid : (⟨S50000, .i32⟩ : BufTy).Contents (Elt F)) (b2 : (⟨S1, .f32⟩ : BufTy).Contents (Elt F)) :
    (⟨S64x1, .f32⟩ : BufTy).Contents (Elt F) :=
  Host.divf
    (Host.scatterAdd scatter_S64x1_S50000x1_S50000x1_1_0_0_1
      (broadcastInDim S64x1 ![] Facts₀.bcast_S_S64x1 (constant S_ .f32 0x00000000#32))
      (broadcastInDim S50000x1 ![0] Facts₀.bcast_S50000_S50000x1_0 gid)
      (addf
        (mulf
          (Host.scatterAdd scatter_S50000x1_S1600000x1_S1600000x1_1_0_0_1
            (broadcastInDim S50000x1 ![] Facts₀.bcast_S_S50000x1 (constant S_ .f32 0x00000000#32))
            (broadcastInDim S1600000x1 ![0] Facts₀.bcast_S1600000_S1600000x1_0 dst)
            (Host.gather gather_S50000x1_S1600000x1_S1600000x1_1_0_n_n_0_1_11 x2w (wrapped src)))
          nd)
        (broadcastInDim S50000x1 ![0, 1] Facts₀.bcast_S1x1_S50000x1_0_1 (broadcastInDim S1x1 ![1] Facts₀.bcast_S1_S1x1_1 b2))))
    (maximumf (broadcastInDim S64x1 ![] Facts₀.bcast_S_S64x1 (id (constant S_ .f32 0x3F800000#32)))
      (Host.scatterAdd scatter_S64x1_S50000x1_S50000x1_1_0_0_1
        (broadcastInDim S64x1 ![] Facts₀.bcast_S_S64x1 (constant S_ .f32 0x00000000#32))
        (broadcastInDim S50000x1 ![0] Facts₀.bcast_S50000_S50000x1_0 gid)
        (broadcastInDim S50000x1 ![] Facts₀.bcast_S_S50000x1 (constant S_ .f32 0x3F800000#32))))

/-- On the extended reals the two changes of float format around the first gather are the identity. -/
theorem aggregated_ideal (x0 : (⟨S50000x128, .f32⟩ : BufTy).Contents (Elt Ideal)) (src dst : (⟨S1600000, .i32⟩ : BufTy).Contents (Elt Ideal)) :
    aggregated (F := Ideal) x0 src dst = aggregatedPlain (F := Ideal) x0 src dst := by
  have widen : ∀ G : FVec Ideal S1600000x128 .bf16, extf (F := Ideal) .f32 G Facts₀.bitsLt_bf16_f32 = G := fun _ => rfl
  have narrow : ∀ X : FVec Ideal S50000x128 .f32, truncf (F := Ideal) .bf16 X Facts₀.bitsLt_bf16_f32 = X := fun _ => rfl
  unfold aggregated aggregatedPlain
  rw [widen, narrow]

/-- The graph convolution with mean pooling, of the eight arguments. -/
def result (a0 : (⟨S50000x128, .f32⟩ : BufTy).Contents (Elt Ideal)) (a1 a2 : (⟨S1600000, .i32⟩ : BufTy).Contents (Elt Ideal))
    (a3 : (⟨S50000, .i32⟩ : BufTy).Contents (Elt Ideal)) (a4 : (⟨S128x256, .f32⟩ : BufTy).Contents (Elt Ideal))
    (a5 : (⟨S256, .f32⟩ : BufTy).Contents (Elt Ideal)) (a6 : (⟨S256x1, .f32⟩ : BufTy).Contents (Elt Ideal))
    (a7 : (⟨S1, .f32⟩ : BufTy).Contents (Elt Ideal)) : (⟨S64x1, .f32⟩ : BufTy).Contents (Elt Ideal) :=
  pooled (F := Ideal) (layers (aggregated (F := Ideal) a0 a1 a2) (degColumn (F := Ideal) a2) (degColumn (F := Ideal) a1) a4
    (fun j => a5 (ix1 j)) a6) (degColumn (F := Ideal) a2) a1 a2 a3 a7

end Cert.GraphConv

end
-- ==== Proof.HostBefore.lean ====
/-
  What the fused call finds in its operands: the host lines before the call, read off their operation list for an
  arbitrary valuation of the buffers and any float arithmetic. The call's first operand holds the aggregated
  features of the arguments, its second and third the in- and out-degree columns, its fifth the first bias as a row.
-/
import proofs.«134346_j85306640433226_2_alg».proof.Proof.Gen.KernelIdeal.Launch
import proofs.«134346_j85306640433226_2_alg».proof.Proof.HostTerms
import Idealize.ShloMosaic.Lib.StableHlo.Run

set_option maxRecDepth 16384

noncomputable section

namespace Cert.GraphConv

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

set_option maxHeartbeats 4000000 in
theorem before_agg :
    StableHlo.after (List.flatten [hostOps0, hostOps0_1, hostOps0_2, hostOps0_3, hostOps0_4]) W (Proc.devRef .tc main_v28)
      = aggregated (W (Proc.devRef .tc main_arg0)) (W (Proc.devRef .tc main_arg1)) (W (Proc.devRef .tc main_arg2)) := by
  simp only [hostOps0, hostOps0_1, hostOps0_2, hostOps0_3, hostOps0_4, List.flatten_cons, List.flatten_nil, List.append_nil,
    List.cons_append, List.nil_append]
  after_results_simp
  unfold aggregated degColumn wrapped
  rfl

set_option maxHeartbeats 4000000 in
theorem before_inDeg :
    StableHlo.after (List.flatten [hostOps0, hostOps0_1, hostOps0_2, hostOps0_3, hostOps0_4]) W (Proc.devRef .tc main_v14)
      = degColumn (W (Proc.devRef .tc main_arg2)) := by
  simp only [hostOps0, hostOps0_1, hostOps0_2, hostOps0_3, hostOps0_4, List.flatten_cons, List.flatten_nil, List.append_nil,
    List.cons_append, List.nil_append]
  after_results_simp
  unfold degColumn
  rfl

set_option maxHeartbeats 4000000 in
theorem before_outDeg :
    StableHlo.after (List.flatten [hostOps0, hostOps0_1, hostOps0_2, hostOps0_3, hostOps0_4]) W (Proc.devRef .tc main_v13)
      = degColumn (W (Proc.devRef .tc main_arg1)) := by
  simp only [hostOps0, hostOps0_1, hostOps0_2, hostOps0_3, hostOps0_4, List.flatten_cons, List.flatten_nil, List.append_nil,
    List.cons_append, List.nil_append]
  after_results_simp
  unfold degColumn
  rfl

set_option maxHeartbeats 4000000 in
theorem before_biasRow :
    StableHlo.after (List.flatten [hostOps0, hostOps0_1, hostOps0_2, hostOps0_3, hostOps0_4]) W (Proc.devRef .tc main_v29)
      = shapeCast S1x256 (W (Proc.devRef .tc main_arg5)) Facts₀.shapeCasts_S256_S1x256 := by
  simp only [hostOps0, hostOps0_1, hostOps0_2, hostOps0_3, hostOps0_4, List.flatten_cons, List.flatten_nil, List.append_nil,
    List.cons_append, List.nil_append]
  after_results_simp <;> rfl

end Cert.GraphConv

end
-- ==== Proof.HostAfter.lean ====
/-
  The host lines after the fused call, read off their operation list for an arbitrary valuation of the buffers and
  any float arithmetic: the result buffer ends at `pooled` of the call's output column, the in-degree column, the
  edge lists, the graph ids and the second bias.
-/
import proofs.«134346_j85306640433226_2_alg».proof.Proof.Gen.KernelIdeal.Launch
import proofs.«134346_j85306640433226_2_alg».proof.Proof.HostTerms
import Idealize.ShloMosaic.Lib.StableHlo.Run

set_option maxRecDepth 16384

noncomputable section

namespace Cert.GraphConv

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

set_option maxHeartbeats 4000000 in
theorem after_pooled :
    StableHlo.after (List.flatten [hostOps1, hostOps1_1, hostOps1_2]) W (Proc.devRef .tc main_v53)
      = pooled (W (Proc.devRef .tc main_v30)) (W (Proc.devRef .tc main_v14)) (W (Proc.devRef .tc main_arg1))
          (W (Proc.devRef .tc main_arg2)) (W (Proc.devRef .tc main_arg3)) (W (Proc.devRef .tc main_arg7)) := by
  simp only [hostOps1, hostOps1_1, hostOps1_2, List.flatten_cons, List.flatten_nil, List.append_nil,
    List.cons_append, List.nil_append]
  after_results_simp
  unfold pooled wrapped
  rfl

end Cert.GraphConv

end
-- ==== Proof.KernelValue.lean ====
/-
  The kernel's result as one function of its arguments.

  `result` is the whole computation on the extended reals: the aggregated features and the two degree columns of the
  edge lists, the two dense layers at every node (`layers`), and the second aggregation with the per-graph mean
  (`pooled`). The kernel's run ends with its result buffer at `result` of the arguments' launch contents: the lines
  after the fused call read the call's output column, which is `layers` of the arrays the call found
  (`region_output`), and those arrays are the lines before the call applied to the arguments.
-/
import proofs.«134346_j85306640433226_2_alg».proof.Proof.RowBlocks
import proofs.«134346_j85306640433226_2_alg».proof.Proof.HostBefore
import proofs.«134346_j85306640433226_2_alg».proof.Proof.HostAfter
import Idealize.ShloMosaic.Lib.ValueLayout

set_option maxRecDepth 16384

noncomputable section

namespace Cert.GraphConv

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## What the fused call finds -/

theorem found_agg (c : Dev nD) :
    V m c main_v28 = aggregated (m ((c : Thread nD τ).loc main_arg0)) (m ((c : Thread nD τ).loc main_arg1)) (m ((c : Thread nD τ).loc main_arg2)) :=
  before_agg (fun b => m (c, b))

theorem found_inDeg (c : Dev nD) : V m c main_v14 = degColumn (m ((c : Thread nD τ).loc main_arg2)) :=
  before_inDeg (fun b => m (c, b))

theorem found_outDeg (c : Dev nD) : V m c main_v13 = degColumn (m ((c : Thread nD τ).loc main_arg1)) :=
  before_outDeg (fun b => m (c, b))

theorem found_biasRow (c : Dev nD) (j : Fin 256) :
    V m c main_v29 (ix2 (0 : Fin 1) j) = m ((c : Thread nD τ).loc main_arg5) (ix1 j) :=
  (congrFun (before_biasRow (fun b => m (c, b))) _).trans (shapeCast_a_1a_apply _ _ (0 : Fin 1) j)

/-- The call's output column, of the arguments. -/
theorem region_output_args (c : Dev nD) :
    (dats m 0 c).arrAt 6 cfg0.N
      = layers (aggregated (m ((c : Thread nD τ).loc main_arg0)) (m ((c : Thread nD τ).loc main_arg1)) (m ((c : Thread nD τ).loc main_arg2)))
          (degColumn (m ((c : Thread nD τ).loc main_arg2))) (degColumn (m ((c : Thread nD τ).loc main_arg1)))
          (m ((c : Thread nD τ).loc main_arg4)) (fun j => m ((c : Thread nD τ).loc main_arg5) (ix1 j))
          (m ((c : Thread nD τ).loc main_arg6)) := by
  rw [region_output m c, found_agg, found_inDeg, found_outDeg, V_main_arg4, V_main_arg6]
  exact congrArg (fun b1 => layers _ _ _ _ b1 _) (funext fun j => found_biasRow m c j)

/-! ## The lines after the call -/

/-- The result buffer after the lines that follow the call. -/
theorem tail_result (c : Dev nD) :
    Pipeline.afterTail₀ cfgs (dats m) 0 (V0 m) [hostOps1, hostOps1_1, hostOps1_2] c main_v53
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  unfold Pipeline.afterTail₀
  refine (after_pooled _).trans ?_
  -- the call's output column is the pipeline's array 6, the in-degree column its (unwritten) array 1
  have h30 : Pipeline.withArrays (cfgs 0).spec c (V0 m c) (fun w => (dats m 0 c).arrAt w (cfgs 0).N) (Proc.devRef .tc main_v30)
      = layers (aggregated (m ((c : Thread nD τ).loc main_arg0)) (m ((c : Thread nD τ).loc main_arg1)) (m ((c : Thread nD τ).loc main_arg2)))
          (degColumn (m ((c : Thread nD τ).loc main_arg2))) (degColumn (m ((c : Thread nD τ).loc main_arg1)))
          (m ((c : Thread nD τ).loc main_arg4)) (fun j => m ((c : Thread nD τ).loc main_arg5) (ix1 j))
          (m ((c : Thread nD τ).loc main_arg6)) :=
    (Pipeline.withArrays_arr spec0 launch0.win.arr_inj c _ _ 6).trans (region_output_args m c)
  have h14 : Pipeline.withArrays (cfgs 0).spec c (V0 m c) (fun w => (dats m 0 c).arrAt w (cfgs 0).N) (Proc.devRef .tc main_v14)
      = degColumn (m ((c : Thread nD τ).loc main_arg2)) :=
    (Pipeline.withArrays_arr spec0 launch0.win.arr_inj c _ _ 1).trans
      (((dats m 0 c).arrAt_in 1 rfl _).trans ((A_eq m c 1).trans (found_inDeg m c)))
  have ha1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have ha2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have ha3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have ha7 : Pipeline.withArrays (cfgs 0).spec c (V0 m c) (fun w => (dats m 0 c).arrAt w (cfgs 0).N) (Proc.devRef .tc main_arg7)
      = m ((c : Thread nD τ).loc main_arg7) :=
    (Pipeline.withArrays_of_ne _ c (V0 m c) _ main_arg7 (by exact (by decide : ∀ w, Pipeline.arrRef spec0 w ≠ main_arg7))).trans (V_main_arg7 m c)
  unfold result
  exact congr (congr (congr (congr (congr (congrArg pooled h30) h14) ha1) ha2) ha3) ha7

/-! ## The run -/

/-- Every weakly fair execution of the kernel's program terminates with the result buffer at `result` of the
    arguments and the arguments unchanged. -/
theorem kernel_run : θ_run defs (onTc (τ := τ) (main (F := Ideal))) ⟨m, fun _ => 0, ρ⟩ (fun r => ∀ c : Dev nD,
      r.2.mem ((c.tc : Thread nD τ).loc main_v53)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v53 (Pipeline.mem_restRefs_of main_v53 (by decide) (by decide))).trans (tail_result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      (((h c).2 main_arg5 (Pipeline.mem_restRefs_of main_arg5 (by decide) (by decide))).trans (W_main_arg5 m (dats m) c)),
      ((h c).1 5).trans (((dats m 0 c).arrAt_in 5 rfl _).trans ((A_eq m c 5).trans (V_main_arg6 m c))),
      (((h c).2 main_arg7 (Pipeline.mem_restRefs_of main_arg7 (by decide) (by decide))).trans (W_main_arg7 m (dats m) c))⟩)
    (run_main m ρ)

end Cert.GraphConv

end
-- ==== Proof.ReferenceRows.lean ====
/-
  The reference's two dense layers, read at a node.

  The reference computes the layers on whole arrays: the aggregated features `[50000, 128]` times the in-degree
  column broadcast along the rows, one product with the first weight matrix, the bias broadcast down the rows, the
  clip at zero, the out-degree column broadcast along the rows, and one product with the second weight column. Read
  at entry `(r, 0)`, each host product is the sum over its contracted coordinate and each broadcast reads its operand
  at row `r` (or at column `j`): the entry is `nodeOut` of row `r`.
-/
import proofs.«134346_j85306640433226_2_alg».proof.Proof.Gen.ReferenceIdeal.Read
import proofs.«134346_j85306640433226_2_alg».proof.Proof.GraphConvLayers

noncomputable section

namespace Cert.GraphConv

open Idealize.ShloMosaic Idealize.ShloMosaic.ValueIdx Cert.ReferenceIdeal Cert.ReferenceIdeal.Read

/-- The reference's second product is `layers` of its aggregated features, its two degree columns and the weights. -/
theorem reference_layers (x0 : (⟨S50000x128, .f32⟩ : BufTy).Contents (Elt Ideal)) (x1 x2 : (⟨S1600000, .i32⟩ : BufTy).Contents (Elt Ideal))
    (x4 : (⟨S128x256, .f32⟩ : BufTy).Contents (Elt Ideal)) (x5 : (⟨S256, .f32⟩ : BufTy).Contents (Elt Ideal))
    (x6 : (⟨S256x1, .f32⟩ : BufTy).Contents (Elt Ideal)) :
    val_main_v37 (F := Ideal) x0 x1 x2 x4 x5 x6
      = layers (val_main_v25 (F := Ideal) x0 x1 x2) (val_main_v26 (F := Ideal) x2) (val_main_v34 (F := Ideal) x1) x4
          (fun j => x5 (ix1 j)) x6 := by
  funext i
  obtain ⟨r, u, rfl⟩ : ∃ (r : Fin 50000) (u : Fin 1), i = ix2 r u := ⟨i 0, i 1, eq_ix2 i⟩
  have hu : u.val = 0 := by omega
  rw [val_main_v37_apply, layers_apply]
  unfold nodeOut
  refine Finset.sum_congr rfl fun j _ => ?_
  have hl : lidx_main_v37 (ix2 r u) j = ix2 r j :=
    funext fun a => Fin.ext (by match a with | ⟨0, _⟩ => rfl | ⟨1, _⟩ => rfl)
  have hr : ridx_main_v37 (ix2 r u) j = ix2 j (0 : Fin 1) :=
    funext fun a => Fin.ext (by match a with | ⟨0, _⟩ => rfl | ⟨1, _⟩ => exact hu)
  rw [hl, hr, val_main_v36_apply, val_main_v33_apply, val_main_v32_apply, val_main_v29_apply, val_main_v31_apply,
    val_main_v30_apply, val_main_v35_apply, val_main_call2_v0_apply, val_main_call2_cst_apply]
  -- the first product's terms: the aggregated row times the in-degree factor, times the weight
  have s1 : (∑ k : Fin 128, val_main_v28 (F := Ideal) x0 x1 x2 (lidx_main_v29 (ix2 r j) k) * x4 (ridx_main_v29 (ix2 r j) k))
      = ∑ f : Fin 128, (val_main_v25 (F := Ideal) x0 x1 x2 (ix2 r f) * val_main_v26 (F := Ideal) x2 (ix2 r (0 : Fin 1))) * x4 (ix2 f j) :=
    Finset.sum_congr rfl fun f _ => by
      have h1 : lidx_main_v29 (ix2 r j) f = ix2 r f :=
        funext fun a => Fin.ext (by match a with | ⟨0, _⟩ => rfl | ⟨1, _⟩ => rfl)
      have h2 : ridx_main_v29 (ix2 r j) f = ix2 f j :=
        funext fun a => Fin.ext (by match a with | ⟨0, _⟩ => rfl | ⟨1, _⟩ => rfl)
      have h3 : idx_main_v27 (ix2 r f) = ix2 r (0 : Fin 1) :=
        funext fun a => Fin.ext (by match a with | ⟨0, _⟩ => rfl | ⟨1, _⟩ => rfl)
      rw [h1, h2, val_main_v28_apply, val_main_v27_apply, h3]
      rfl
  have s2 : idx_main_v30 (idx_main_v31 (ix2 r j)) = ix1 j :=
    funext fun a => Fin.ext (by match a with | ⟨0, _⟩ => rfl)
  have s3 : idx_main_v35 (ix2 r j) = ix2 r (0 : Fin 1) :=
    funext fun a => Fin.ext (by match a with | ⟨0, _⟩ => rfl | ⟨1, _⟩ => rfl)
  rw [s1, s2, s3]
  rfl

end Cert.GraphConv

end
-- ==== Proof.ReferenceValue.lean ====
/-
  The reference computes `result`.

  Stage by stage the reference's host program is the same computation: its degree columns, its aggregated features
  (with no change of float format) and its pooling are the named terms of the host side, for any float arithmetic;
  its two dense products are `layers` on the extended reals (`reference_layers`), where also the kernel's two changes
  of float format around its first gather are the identity (`aggregated_ideal`).
-/
import proofs.«134346_j85306640433226_2_alg».proof.Proof.HostTerms
import proofs.«134346_j85306640433226_2_alg».proof.Proof.ReferenceRows

set_option maxRecDepth 16384

noncomputable section

namespace Cert.GraphConv

open Idealize.ShloMosaic Idealize.ShloMosaic.ValueIdx Cert.ReferenceIdeal.Read

section AnyFloats

variable {F : FTy → Type} [FloatOps F]
variable (x0 : (⟨Cert.ReferenceIdeal.S50000x128, .f32⟩ : BufTy).Contents (Elt F))
  (x1 x2 : (⟨Cert.ReferenceIdeal.S1600000, .i32⟩ : BufTy).Contents (Elt F))
  (x3 : (⟨Cert.ReferenceIdeal.S50000, .i32⟩ : BufTy).Contents (Elt F))
  (x4 : (⟨Cert.ReferenceIdeal.S128x256, .f32⟩ : BufTy).Contents (Elt F))
  (x5 : (⟨Cert.ReferenceIdeal.S256, .f32⟩ : BufTy).Contents (Elt F))
  (x6 : (⟨Cert.ReferenceIdeal.S256x1, .f32⟩ : BufTy).Contents (Elt F))
  (x7 : (⟨Cert.ReferenceIdeal.S1, .f32⟩ : BufTy).Contents (Elt F))

/-- The reference's out-degree column is `degColumn` of the sources, -/
theorem reference_outDeg : val_main_v34 (F := F) x1 = degColumn x1 := rfl

/-- its in-degree column `degColumn` of the targets (it forms the column twice), -/
theorem reference_inDeg : val_main_v26 (F := F) x2 = degColumn x2 := rfl
theorem reference_inDeg' : val_main_v48 (F := F) x2 = degColumn x2 := rfl

/-- its aggregated features `aggregatedPlain`, -/
theorem reference_aggregated : val_main_v25 (F := F) x0 x1 x2 = aggregatedPlain x0 x1 x2 := rfl

/-- and its result `pooled` of its second product. -/
theorem reference_pooled :
    val_main_v61 (F := F) x0 x1 x2 x3 x4 x5 x6 x7
      = pooled (val_main_v37 (F := F) x0 x1 x2 x4 x5 x6) (val_main_v48 (F := F) x2) x1 x2 x3 x7 := rfl

end AnyFloats

/-- On the extended reals the reference's result is `result` of its arguments. -/
theorem reference_result (x0 : (⟨Cert.ReferenceIdeal.S50000x128, .f32⟩ : BufTy).Contents (Elt Ideal))
    (x1 x2 : (⟨Cert.ReferenceIdeal.S1600000, .i32⟩ : BufTy).Contents (Elt Ideal))
    (x3 : (⟨Cert.ReferenceIdeal.S50000, .i32⟩ : BufTy).Contents (Elt Ideal))
    (x4 : (⟨Cert.ReferenceIdeal.S128x256, .f32⟩ : BufTy).Contents (Elt Ideal))
    (x5 : (⟨Cert.ReferenceIdeal.S256, .f32⟩ : BufTy).Contents (Elt Ideal))
    (x6 : (⟨Cert.ReferenceIdeal.S256x1, .f32⟩ : BufTy).Contents (Elt Ideal))
    (x7 : (⟨Cert.ReferenceIdeal.S1, .f32⟩ : BufTy).Contents (Elt Ideal)) :
    val_main_v61 (F := Ideal) x0 x1 x2 x3 x4 x5 x6 x7 = result x0 x1 x2 x3 x4 x5 x6 x7 := by
  rw [reference_pooled, reference_layers, reference_aggregated, ← aggregated_ideal, reference_inDeg, reference_inDeg',
    reference_outDeg]
  unfold result
  rfl

end Cert.GraphConv

end
-- ==== Proof.lean ====
/-
  A two-layer graph convolution with mean pooling: a fused kernel against its array-level reference, on the
  extended reals.

  Both programs compute, from the node features, the edge lists, the graph ids and the weights: each node's in- and
  out-degree factor `(max 1 degree)^(-1/2)`; the features scaled by the out-degree factor, gathered along the edges'
  sources and summed into the edges' targets; at every node the two dense layers
  `∑ j, (max (∑ f, (a f · nd) · W1 (f, j) + b1 j) 0 · ns) · W2 (j, 0)`; a second gather and sum along the edges, the
  in-degree scale and the second bias; and the mean over each graph's nodes.

  The reference does the two dense layers as two whole-array products. The kernel does them in one fused call over a
  grid of 25 points, each point on 2000 rows: row `p` of point `t`'s block is node `2000·t + p`, the blocks cover the
  50000 nodes, and the value at a node depends on that node's row only, so the call's output column is the same
  function of the arrays the call finds (`RowBlocks`). A matrix product is the sum over its contracted coordinate on
  both sides and a change of float format is the identity, so no sum is regrouped and no entry needs to be finite:
  the precondition is not used. The host lines around the call are the reference's own lines (`HostBefore`,
  `HostAfter`, `ReferenceValue`), so both programs end at `Cert.GraphConv.result` of their arguments.

  The three frames are the generated ones (the reference's is its generated run with the result dropped); the
  idealization rewrote no operation, so there is nothing to preserve.
-/
import proofs.«134346_j85306640433226_2_alg».proof.Defs
import proofs.«134346_j85306640433226_2_alg».proof.Proof.Gen.Kernel
import proofs.«134346_j85306640433226_2_alg».proof.Proof.Gen.Kernel.Frame
import proofs.«134346_j85306640433226_2_alg».proof.Proof.Gen.KernelIdeal
import proofs.«134346_j85306640433226_2_alg».proof.Proof.Gen.KernelIdeal.Frame
import proofs.«134346_j85306640433226_2_alg».proof.Proof.Gen.ReferenceIdeal
import proofs.«134346_j85306640433226_2_alg».proof.Proof.Gen.ReferenceIdeal.Run
import proofs.«134346_j85306640433226_2_alg».proof.Proof.Gen.ReferenceIdeal.Read
import proofs.«134346_j85306640433226_2_alg».proof.Proof.Gen.Pre_finite_inputs
import proofs.«134346_j85306640433226_2_alg».proof.Proof.KernelValue
import proofs.«134346_j85306640433226_2_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end at `result` of the arguments. -/
theorem algebraic : Cert.algebraic_KernelIdeal_ReferenceIdeal := by
  intro m ρ m' ρ' _ hagree
  refine ⟨fun c => Cert.GraphConv.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.GraphConv.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  have hv : Cert.ReferenceIdeal.Value.res_main_v61 (F := Ideal) m' c
      = Cert.GraphConv.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
    rw [Cert.ReferenceIdeal.Read.val_main_v61_eq, Cert.GraphConv.reference_result, h0, h1, h2, h3, h4, h5, h6, h7]
  exact hv

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
